-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 4
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S1x1, .f32⟩
  | .hbm, ⟨3, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v27 : BitVec 1 := Scalar.cmpi .eq arg0 c31_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S33554432, .f32⟩
  | .hbm, ⟨11, _⟩ => ⟨S33554432, .f32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .i1⟩
  | .hbm, ⟨18, _⟩ => ⟨S33554432, .f32⟩
  | .hbm, ⟨19, _⟩ => ⟨S_, .f32⟩
  | .hbm, ⟨20, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Huber.lean ====
/-
  The specification.  Both programs compute, of an array `x` of 33,554,432 numbers, the sum over
  every position of the Huber term of threshold `τ` (the number the word `0x3DCCCCCD` denotes):
  `x² · ½` where `|x| ≤ τ`, and `τ · (|x| − τ) + c` elsewhere, `c` the number `0x3BA3D70A` denotes.
  The three constants are the same words on both sides, so they are never evaluated.  Stated here
  over the extended reals, with no program in sight: the term at one number, and the total of one
  8192 × 128 block as the double sum over its rows and lanes.
-/
import Idealize.ShloMosaic.PureOps.Ideal
import Idealize.ShloMosaic.PureOps.Ideal.Laws
import Idealize.ShloMosaic.Lib.ValueIdx

noncomputable section

namespace Huber

open Idealize.ShloMosaic

/-- The Huber term at one extended real: the quadratic branch where `|x| ≤ τ`, the linear one elsewhere. -/
def term (x : Ideal .f32) : Ideal .f32 :=
  Scalar.select (FloatOps.cmpf .ole (FloatOps.absf x) (Scalar.ofBits .f32 0x3DCCCCCD#32))
    (FloatOps.mulf (FloatOps.mulf x x) (Scalar.ofBits .f32 0x3F000000#32))
    (FloatOps.addf
      (FloatOps.mulf (Scalar.ofBits .f32 0x3DCCCCCD#32) (FloatOps.subf (FloatOps.absf x) (Scalar.ofBits .f32 0x3DCCCCCD#32)))
      (Scalar.ofBits .f32 0x3BA3D70A#32))

/-- The total of one block of 8192 rows and 128 lanes: rows outside, lanes inside. -/
def blockTotal (x : (⟨2, ![8192, 128]⟩ : Shape).Idx → Ideal .f32) : Ideal .f32 :=
  ∑ r : Fin 8192, ∑ l : Fin 128, term (x (ValueIdx.ix2 r l))

end Huber

end
-- ==== Proof.RefValue.lean ====
/-
  The reference's result, read at the extended reals.  Its last operation sums, from the initial
  value zero, an array whose entry at every position is the Huber term of the argument there
  (the nineteen operations before it are pointwise: absolute value, square, the three broadcast
  constants, the comparison and the select).  So the result, at its one index, is the flat sum
  over all 33,554,432 positions of the Huber term.
-/
import proofs.«161205_j20255065768293_2_alg».proof.Proof.Gen.ReferenceIdeal.Run
import proofs.«161205_j20255065768293_2_alg».proof.Proof.Gen.ReferenceIdeal.Read
import proofs.«161205_j20255065768293_2_alg».proof.Proof.Huber
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic

/-- The array the reference sums holds, at every position, the Huber term of the argument there: the host's
    absolute value is the kernel's on the extended reals, and a broadcast scalar reads its one entry everywhere. -/
theorem summand_apply (x : (⟨S33554432, .f32⟩ : BufTy).Contents (Elt Ideal)) (j : S33554432.Idx) :
    val_main_v12 (F := Ideal) x j = Huber.term (x j) := by
  simp only [val_main_v12_apply, val_main_v11_apply, val_main_v9_apply, val_main_v7_apply, val_main_v5_apply,
    val_main_v3_apply, val_main_v1_apply, val_main_v0_apply, val_main_v2_apply, val_main_v4_apply, val_main_v6_apply,
    val_main_v8_apply, val_main_v10_apply, val_main_cst_apply, val_main_cst_0_apply, val_main_cst_1_apply,
    val_main_cst_2_apply, val_main_cst_3_apply]
  rfl

/-- The reference's result is the flat sum of the Huber terms: the initial value is the real zero. -/
theorem result_apply (x : (⟨S33554432, .f32⟩ : BufTy).Contents (Elt Ideal)) (i : S_.Idx) :
    val_main_v13 (F := Ideal) x i = ∑ j : S33554432.Idx, Huber.term (x j) := by
  rw [val_main_v13_apply, val_main_cst_4_apply]
  show Ideal.ofBits .f32 0x00000000#32 + _ = _
  rw [Ideal.ofBits_zero_f32, zero_add]
  exact Finset.sum_congr rfl fun j _ => summand_apply x j

end Cert.ReferenceIdeal.RefValue

end
-- ==== Proof.Pieces.lean ====
/-
  What one run of the body leaves behind, case by case.  The body has three cases over the 32 grid
  points: the first point (it resets the running total before accumulating), the 30 middle points,
  and the last point (it also copies the running total into the output).  In every case the scratch
  that carries the running total ends holding the point's payload — the block loaded at the point
  and the total found (at the first point: the reset value) — because the body's last store into the
  scratch covers it whole and its loads read whole buffers.  At the last point the output's buffer
  holds the same payload: it is a whole copy of the scratch read back after that store.
-/
import proofs.«161205_j20255065768293_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The body's loads and stores all start at offset (0, 0). -/
theorem hz : (![0, 0] : Fin 2 → Nat) = fun _ => 0 := funext fun a => by fin_cases a <;> rfl

/-- A MIDDLE POINT.  The body finds the running total `xs` in the scratch, loads the block `x`, and leaves in the
    scratch its one covering store: the point's payload of `x` and `xs`. -/
theorem scratch_B (c : Dev nD) (i : grid0.Coords) (a1 : Memref sig .tc .vmem S8192x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S8192x128 .f32) (xs : Vec F S1x1 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  rw [View.canon_unit_zero hz]
  simp only [View.readAt_eq_ld, h1.read_unread, h3.read_unread, View.ld_unit_zero (S := S8192x128) hz,
    View.ld_unit_zero (S := S1x1) hz]

/-- THE FIRST POINT.  The body first stores the reset value over the whole scratch, reads it back, and leaves the
    point's payload of the block and that reset value. -/
theorem scratch_A (c : Dev nD) (i : grid0.Coords) (a1 : Memref sig .tc .vmem S8192x128 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S8192x128 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S8192x128) hz,
    View.ld_unit_zero (S := S1x1) hz]

/-- THE LAST POINT, the scratch: as at a middle point. -/
theorem scratch_C (c : Dev nD) (i : grid0.Coords) (a1 : Memref sig .tc .vmem S8192x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S8192x128 .f32) (xs : Vec F S1x1 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S8192x128) hz,
    View.ld_unit_zero (S := S1x1) hz]

/-- THE LAST POINT, the output: the body reads the scratch back after its store and copies it whole into the
    output's buffer, which therefore holds the same payload. -/
theorem out_C (c : Dev nD) (i : grid0.Coords) (a1 : Memref sig .tc .vmem S8192x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S8192x128 .f32) (xs : Vec F S1x1 .f32) :
    out0_C_1 c i a1 h1 a2 h2 a3 h3 hc0 hc1 x xs = k0_pay2 x xs := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz, View.readCov_unit_zero (S := S1x1) _ hz]
  simp only [View.readAt_eq_ld, h1.read_unread, h3.read_unread, View.ld_unit_zero (S := S8192x128) hz,
    View.ld_unit_zero (S := S1x1) hz]

end Cert.KernelIdeal.Pieces

end
-- ==== Proof.Carried.lean ====
/-
  The running total from one grid point to the next.  What the scratch holds after point `n` is,
  at the first point, the payload of that point's block and the reset value; at every later point,
  the payload of that point's block and what the scratch held after the point before.  After the
  last point (point 31) the output's buffer holds the payload of the last block and what the scratch
  held after point 30.  These are the three case values read at the case the point is in; nothing
  here depends on what the payload computes.
-/
import proofs.«161205_j20255065768293_2_alg».proof.Proof.Pieces

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After the first point the scratch holds the payload of block 0 and the reset value. -/
theorem first (c : Dev nD) (h : 0 < cfg0.N) :
    (outsAt0 m c 0 h).2 = k0_pay2 (iblk m c 0 ⟨0, h⟩) (k0_pay1 (F := F)) := by
  have h1 : ¬(⟨0, h⟩ : Fin cfg0.N).val % 32 = 31 := by show ¬(0 : ℕ) % 32 = 31; decide
  rw [outsAt0_A m c ⟨0, h⟩ rfl h1]
  dsimp only
  exact Pieces.scratch_A (F := F) c (grid0.coords ⟨0, h⟩) (ms0_0 ⟨0, h⟩) (hs0_0 ⟨0, h⟩) (ms0_1 ⟨0, h⟩) (hs0_1 ⟨0, h⟩) scM0_0 (Memref.isWhole_whole _)
    ((hcond0_0 ⟨0, h⟩).mpr rfl) (fun hh => h1 ((hcond0_1 ⟨0, h⟩).mp hh)) (iblk m c 0 ⟨0, h⟩)

/-- After a later point the scratch holds the payload of that point's block and what the point before left. -/
theorem step (c : Dev nD) (n : ℕ) (h : n + 1 < cfg0.N) :
    (outsAt0 m c (n + 1) h).2
      = k0_pay2 (iblk m c 0 ⟨n + 1, h⟩) (outsAt0 m c n (Nat.lt_of_succ_lt h)).2 := by
  have hN : cfg0.N = 32 := N_0
  have h0 : ¬(⟨n + 1, h⟩ : Fin cfg0.N).val % 32 = 0 := by dsimp only; omega
  by_cases h1 : (⟨n + 1, h⟩ : Fin cfg0.N).val % 32 = 31
  · rw [outsAt0_C m c ⟨n + 1, h⟩ h0 h1]
    exact Pieces.scratch_C (F := F) c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩) _
  · rw [outsAt0_B m c ⟨n + 1, h⟩ h0 h1]
    exact Pieces.scratch_B (F := F) c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩) _

/-- After the last point the output's buffer holds the payload of the last block and what point 30 left. -/
theorem last_out (c : Dev nD) (h : 30 + 1 < cfg0.N) :
    (outsAt0 m c (30 + 1) h).1
      = k0_pay2 (iblk m c 0 ⟨30 + 1, h⟩) (outsAt0 m c 30 (Nat.lt_of_succ_lt h)).2 := by
  have h0 : ¬(⟨30 + 1, h⟩ : Fin cfg0.N).val % 32 = 0 := by show ¬(30 + 1 : ℕ) % 32 = 0; decide
  have h1 : (⟨30 + 1, h⟩ : Fin cfg0.N).val % 32 = 31 := by show (30 + 1 : ℕ) % 32 = 31; decide
  rw [outsAt0_C m c ⟨30 + 1, h⟩ h0 h1]
  dsimp only
  exact Pieces.out_C (F := F) c (grid0.coords ⟨30 + 1, h⟩) (ms0_0 ⟨30 + 1, h⟩) (hs0_0 ⟨30 + 1, h⟩) (ms0_1 ⟨30 + 1, h⟩) (hs0_1 ⟨30 + 1, h⟩) scM0_0 (Memref.isWhole_whole _)
    (fun hh => h0 ((hcond0_0 ⟨30 + 1, h⟩).mp hh)) ((hcond0_1 ⟨30 + 1, h⟩).mpr h1) (iblk m c 0 ⟨30 + 1, h⟩) _

end Cert.KernelIdeal.Carried

end
-- ==== Proof.BlockValue.lean ====
/-
  One grid point's arithmetic, read at the extended reals.  The body loads a block `x` of 8192 rows
  and 128 lanes and the running total `acc` (a 1 × 1 array), forms the Huber term at every entry of
  the block, sums each row over its 128 lanes, sums the 8192 row sums, and stores `acc` plus that
  total.  Each of the two reductions is a plain finite sum on the extended reals, and the reshapes
  between them (a vector of row sums viewed as a column; a one-entry vector viewed as a 1 × 1 array)
  move no number.  So the stored value is `acc + Σ_r Σ_l term (x r l)`.  The value the body stores
  at the first grid point, before accumulating, is the real zero.
-/
import proofs.«161205_j20255065768293_2_alg».proof.Proof.Gen.KernelIdeal.Skeleton
import proofs.«161205_j20255065768293_2_alg».proof.Proof.Huber
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- The sum over the lanes of row `r`: the reduction along axis 1 of an 8192 × 128 array, read at `r`. -/
theorem laneSum_apply (v : FVec Ideal S8192x128 .f32) (h : S8192x128.Reduces [1] S8192) (hφ : FKind.Formats .f32)
    (hacc : (0x00000000#32 : BitVec 32) = FKind.add.neutral .f32 hφ) (r : Fin 8192) :
    multiReduction .add [1] S8192 v 0x00000000#32 h hφ hacc (ix1 r) = ∑ l : Fin 128, v (ix2 r l) := by
  refine (Ideal.multiReduction_add_single v _ h hφ hacc (ix1 r)).trans ?_
  show ∑ l : Fin 128, v (h.lift (ix1 r) l) = _
  refine Finset.sum_congr rfl fun l _ => congrArg v ?_
  funext a
  match a with
  | ⟨0, _⟩ => rfl
  | ⟨1, _⟩ => rfl

/-- The sum over the rows of a column: the reduction along axis 0 of an 8192 × 1 array, at its one index. -/
theorem rowSum_apply (u : FVec Ideal S8192x1 .f32) (h : S8192x1.Reduces [0] S1) (hφ : FKind.Formats .f32)
    (hacc : (0x00000000#32 : BitVec 32) = FKind.add.neutral .f32 hφ) (k : S1.Idx) :
    multiReduction .add [0] S1 u 0x00000000#32 h hφ hacc k = ∑ r : Fin 8192, u (ix2 r 0) := by
  refine (Ideal.multiReduction_add_single u _ h hφ hacc k).trans ?_
  show ∑ r : Fin 8192, u (h.lift k r) = _
  refine Finset.sum_congr rfl fun r _ => congrArg u ?_
  funext a
  match a with
  | ⟨0, _⟩ => rfl
  | ⟨1, _⟩ => exact (Subsingleton.elim _ _ : (_ : Fin 1) = _)

/-- A vector of 8192 numbers viewed as a column: entry `(r, 0)` is entry `r`. -/
theorem column_apply (w : FVec Ideal S8192 .f32) (h : S8192.ShapeCasts S8192x1) (r : Fin 8192) :
    shapeCast S8192x1 w h (ix2 r 0) = w (ix1 r) := by
  refine shapeCast_apply w h (ix2 r 0) (ix1 r) ?_
  rw [Shape.rowMajor_val_one, Shape.rowMajor_val_two]
  show r.val = r.val * 1 + 0
  omega

/-- A one-entry vector viewed as a 1 × 1 array: its one entry. -/
theorem single_apply (z : FVec Ideal S1 .f32) (h : S1.ShapeCasts S1x1) (j : S1x1.Idx) :
    shapeCast S1x1 z h j = z (ix1 0) := by
  refine shapeCast_apply z h j (ix1 0) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- THE POINT'S VALUE.  What the body stores into the running total at a grid point, of the block `x` it loaded and
    the total `acc` it found: `acc` plus the block's total. -/
theorem stored_apply (x : Vec Ideal S8192x128 .f32) (acc : Vec Ideal S1x1 .f32) (j : S1x1.Idx) :
    k0_pay2 (F := Ideal) x acc j = acc j + Huber.blockTotal x := by
  unfold k0_pay2
  simp only [shapeCast_self]
  refine (addf_apply _ _ j).trans ?_
  refine congrArg (acc j + ·) ?_
  refine (single_apply _ _ j).trans ?_
  refine (rowSum_apply _ _ _ _ _).trans ?_
  unfold Huber.blockTotal
  refine Finset.sum_congr rfl fun r _ => ?_
  refine (column_apply _ _ r).trans ?_
  refine (laneSum_apply _ _ _ _ r).trans ?_
  rfl

/-- The value the body stores at the first grid point before it accumulates: zero. -/
theorem reset_apply (j : S1x1.Idx) : k0_pay1 (F := Ideal) j = 0 := by
  unfold k0_pay1
  simp only [shapeCast_self]
  exact Ideal.ofBits_zero_f32

end Cert.KernelIdeal.BlockValue

end
-- ==== Proof.Accum.lean ====
/-
  The running total is a sum.  Read at the extended reals, the payload of a block and a running
  total is the total plus the block's own total (the sum of the Huber terms over its 8192 × 128
  entries), and the reset value is zero.  So after grid point `n` the scratch holds the sum of the
  block totals of points `0 … n`: by induction on the point, one addition per step, with no
  reordering of anything.  After the last point the output's buffer holds the sum over all 32 points.
-/
import proofs.«161205_j20255065768293_2_alg».proof.Proof.Carried
import proofs.«161205_j20255065768293_2_alg».proof.Proof.BlockValue

noncomputable section

namespace Cert.KernelIdeal.Accum

open Cert.KernelIdeal Cert.KernelIdeal.Gen Idealize.ShloMosaic Idealize.ShloMosaic.TcCoe Idealize.SL.Sem

variable (m : (ℓ : Loc nD τ sig) → Buf (Elt Ideal) ℓ)

/-- The total of the block that grid point `n` reads; zero past the grid, where it is never used. -/
def addend (c : Dev nD) (n : ℕ) : Ideal .f32 :=
  if h : n < cfg0.N then Huber.blockTotal (iblk m c 0 ⟨n, h⟩ : Vec Ideal S8192x128 .f32) else 0

theorem addend_of_lt (c : Dev nD) (n : ℕ) (h : n < cfg0.N) :
    addend m c n = Huber.blockTotal (iblk m c 0 ⟨n, h⟩ : Vec Ideal S8192x128 .f32) := dif_pos h

/-- After point `n` the scratch's one entry is the sum of the block totals of points `0 … n`. -/
theorem scratch_eq (c : Dev nD) : ∀ (n : ℕ) (h : n < cfg0.N) (j : S1x1.Idx),
    (outsAt0 m c n h).2 j = ∑ s ∈ Finset.range (n + 1), addend m c s
  | 0, h, j => by
    refine (congrFun (Carried.first m c h) j).trans ?_
    refine (BlockValue.stored_apply (iblk m c 0 ⟨0, h⟩) _ j).trans ?_
    rw [BlockValue.reset_apply, zero_add, Finset.sum_range_one, addend_of_lt m c 0 h]
  | n + 1, h, j => by
    refine (congrFun (Carried.step m c n h) j).trans ?_
    refine (BlockValue.stored_apply (iblk m c 0 ⟨n + 1, h⟩) _ j).trans ?_
    rw [scratch_eq c n (Nat.lt_of_succ_lt h) j, Finset.sum_range_succ _ (n + 1), addend_of_lt m c (n + 1) h]

/-- After the last point the output's one entry is the sum of all 32 block totals. -/
theorem out_eq (c : Dev nD) (h : 30 + 1 < cfg0.N) (j : S1x1.Idx) :
    (outsAt0 m c (30 + 1) h).1 j = ∑ s ∈ Finset.range 32, addend m c s := by
  refine (congrFun (Carried.last_out m c h) j).trans ?_
  refine (BlockValue.stored_apply (iblk m c 0 ⟨30 + 1, h⟩) _ j).trans ?_
  rw [scratch_eq m c 30 (Nat.lt_of_succ_lt h) j, ← addend_of_lt m c (30 + 1) h]
  exact (Finset.sum_range_succ (addend m c) (30 + 1)).symm

end Cert.KernelIdeal.Accum

end
-- ==== Proof.KernelValue.lean ====
/-
  The kernel's result.  The output array is 1 × 1 and its one block is the whole array; the pipeline
  writes it back once, after the last grid point, and what it writes is the output buffer's contents
  there: the sum of all 32 block totals.  So the output array ends holding that sum, and the host's
  reshape after the region — the 1 × 1 array viewed as a scalar — hands the same number on as the
  program's result.  The argument array is never written.
-/
import proofs.«161205_j20255065768293_2_alg».proof.Proof.Accum
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The sum of the 32 block totals. -/
def total (c : Dev nD) : Ideal .f32 := ∑ s ∈ Finset.range 32, Accum.addend m c s

/-- The 1 × 1 output array holding that sum. -/
abbrev result (c : Dev nD) : Buf (Elt Ideal) ((c : Thread nD τ).loc main_v1) := fun _ => total m c

/-- The last grid point. -/
abbrev tLast : Fin cfg0.N := ⟨31, by rw [show cfg0.N = 32 from N_0]; decide⟩

/-- The one write-back, after the last point, writes the sum: block (0, 0) of the 1 × 1 array is the array. -/
theorem flushed_eq (c : Dev nD) (t : Fin cfg0.N) (hf : (cfg0.win 1).flush t = true) :
    (dats m 0 c).flushed 1 t = ((cfg0.win 1).blk t).view.read (Elt Ideal) (result m c) := by
  have hN : cfg0.N = 32 := N_0
  have h31 : t.val = 31 := by have := (flush0_1 t).mp hf; have := t.isLt; omega
  obtain rfl : t = tLast := Fin.ext h31
  show (cfg0.win 1).cut (grid0.coords tLast) ((dats m 0 c).after 1 tLast) = _
  rw [after0_1]
  rw [show (outsAt0 m c tLast.val tLast.isLt).1 = result m c from funext fun j => Accum.out_eq m c _ j]
  have hz' : (fun a => win0_1.index tLast a * main_v1.ty.shape.size a) = fun _ => 0 :=
    funext fun a => by fin_cases a <;> decide
  exact (Memref.read_access_unit_zero (Elt Ideal) main_v1 hz' (fun a => by rw [congrFun hz' a]; simp) (result m c)).symm

/-- So the output array ends holding the sum: the last point's block covers it. -/
theorem final (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index tLast 0 * win0_1.size 0 ≤ (i 0 : Nat)
          ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 1 from by decide +kernel]
        omega
      | ⟨1, _⟩ =>
        show win0_1.index tLast 1 * win0_1.size 1 ≤ (i 1 : Nat)
          ∧ (i 1 : Nat) < win0_1.index tLast 1 * win0_1.size 1 + win0_1.xsize (grid0.coords tLast) 1
        rw [show win0_1.index tLast 1 * win0_1.size 1 = 0 from by decide +kernel,
          show win0_1.xsize (grid0.coords tLast) 1 = 1 from by decide +kernel]
        omega⟩

/-- The host's reshape after the region reads the 1 × 1 array's entry: the program's result is the sum. -/
theorem tail_eq (c : Dev nD) :
    Pipeline.afterTail₀ cfgs (dats m) 0 (V0 m) [hostOps1] c main_v2 = fun _ => total m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = result m c :=
    (Pipeline.withArrays_arr spec0 launch0.win.arr_inj c _ _ 1).trans (final m c)
  funext i
  show shapeCast main_v2.ty.shape (Pipeline.withArrays (cfgs 0).spec c (V0 m c)
      (fun w => (dats m 0 c).arrAt w (cfgs 0).N) (Proc.devRef .tc main_v1)) shapeCasts_S1x1_S_ i = total m c
  rw [e]
  rfl

/-- The kernel's run, read: the result at the sum of the 32 block totals, the argument unchanged. -/
theorem run : θ_run defs (onTc (τ := τ) (main (F := Ideal))) ⟨m, fun _ => 0, ρ⟩ fun r => ∀ c : Dev nD,
      r.2.mem ((c : Thread nD τ).loc main_v2) = (fun _ => total m c)
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.KernelValue

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.Bridge.lean ====
/-
  The 32 block totals add up to the flat sum.  The array the kernel's region reads is the argument
  viewed as 262144 rows of 128 lanes: entry `(R, l)` is the argument's entry `128·R + l`.  The block
  that grid point `t` reads is rows `8192·t … 8192·t + 8191` of that array.  So entry `(r, l)` of
  block `t` is the argument's entry `(8192·t + r)·128 + l`, and as `t`, `r`, `l` range over 32, 8192
  and 128 values these positions run once through all 33,554,432 positions.  Summing the Huber terms
  in the kernel's order (blocks, then rows, then lanes) is therefore a regrouping of the flat sum —
  valid on the extended reals because it only re-indexes a finite sum in a commutative monoid.
-/
import proofs.«161205_j20255065768293_2_alg».proof.Proof.KernelValue
import proofs.«161205_j20255065768293_2_alg».proof.Proof.LibSumBlocks

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The Huber term of the flat argument's entry `n`; zero past its end, where it is never used. -/
def flat (x : S33554432.Idx → Ideal .f32) (n : ℕ) : Ideal .f32 :=
  if h : n < 33554432 then Huber.term (x (ix1 ⟨n, h⟩)) else 0

/-- A rank-1 index is its one coordinate. -/
def idxEquiv1 {n : ℕ} : (⟨1, ![n]⟩ : Shape).Idx ≃ Fin n where
  toFun i := i 0
  invFun := ix1
  left_inv i := (eq_ix1 i).symm
  right_inv _ := rfl

/-- The flat sum over the argument's index set, position by position. -/
theorem flat_sum (x : S33554432.Idx → Ideal .f32) :
    ∑ j : S33554432.Idx, Huber.term (x j) = ∑ i : Fin 33554432, flat x i.val := by
  rw [← Equiv.sum_comp (idxEquiv1 (n := 33554432)).symm fun j => Huber.term (x j)]
  refine Finset.sum_congr rfl fun i _ => ?_
  show Huber.term (x (ix1 i)) = flat x i.val
  unfold flat
  rw [dif_pos i.isLt]

/-- What the region finds in its input array: the argument, reshaped by the one host operation before it. -/
theorem entry_eq (c : Dev nD) :
    (V m c main_v0 : S262144x128.Idx → Ideal .f32)
      = shapeCast S262144x128 (m ((c : Thread nD τ).loc main_arg0)) shapeCasts_S33554432_S262144x128 := by
  show StableHlo.after hostOps0 (fun b => m (c, b)) (Proc.devRef .tc main_v0) = _
  after_results
  rfl

/-- The reshape keeps the row-major position: entry `(R, l)` of the 262144 × 128 view is entry `128·R + l`. -/
theorem reshape_apply (x : S33554432.Idx → Ideal .f32) (h : S33554432.ShapeCasts S262144x128)
    (R : Fin 262144) (l : Fin 128) (hb : R.val * 128 + l.val < 33554432) :
    shapeCast S262144x128 x h (ix2 R l) = x (ix1 ⟨R.val * 128 + l.val, hb⟩) := by
  refine shapeCast_apply x h (ix2 R l) (ix1 ⟨R.val * 128 + l.val, hb⟩) ?_
  rw [Shape.rowMajor_val_one, Shape.rowMajor_val_two]
  rfl

/-- The block index of the input window at point `t` is `(t, 0)`: decided once over the grid. -/
theorem index_facts : ∀ t : Fin cfg0.N, win0_0.index t 0 = t.val ∧ win0_0.index t 1 = 0 :=
  (by decide +kernel : ∀ t : Fin grid0.N, win0_0.index t 0 = t.val ∧ win0_0.index t 1 = 0)

/-- Entry `(r, l)` of the block point `t` reads is entry `(8192·t + r, l)` of the region's input array. -/
theorem block_apply (c : Dev nD) (t : Fin cfg0.N) (r : Fin 8192) (l : Fin 128) (hb : t.val * 8192 + r.val < 262144) :
    (iblk m c 0 t : Vec Ideal S8192x128 .f32) (ix2 r l)
      = (V m c main_v0 : S262144x128.Idx → Ideal .f32) (ix2 ⟨t.val * 8192 + r.val, hb⟩ l) := by
  unfold iblk
  rw [View.read_apply]
  show V m c main_v0 _ = V m c main_v0 _
  refine congrArg (V m c main_v0) (funext fun a => Fin.ext ?_)
  match a with
  | ⟨0, _⟩ =>
    show win0_0.index t 0 * 8192 + 1 * r.val = t.val * 8192 + r.val
    rw [(index_facts t).1]; omega
  | ⟨1, _⟩ =>
    show win0_0.index t 1 * 128 + 1 * l.val = l.val
    rw [(index_facts t).2]; omega

/-- The total of the block point `t` reads, over the flat argument's positions. -/
theorem addend_eq (c : Dev nD) (t : Fin 32) :
    Accum.addend m c t.val
      = ∑ r : Fin 8192, ∑ l : Fin 128,
          flat (m ((c : Thread nD τ).loc main_arg0)) ((t.val * 8192 + r.val) * 128 + l.val) := by
  have ht : t.val < cfg0.N := by rw [show cfg0.N = 32 from N_0]; exact t.isLt
  rw [Accum.addend_of_lt m c t.val ht]
  unfold Huber.blockTotal
  refine Finset.sum_congr rfl fun r _ => Finset.sum_congr rfl fun l _ => ?_
  have h1 : t.val * 8192 + r.val < 262144 := by have := t.isLt; have := r.isLt; omega
  have h2 : (t.val * 8192 + r.val) * 128 + l.val < 33554432 := by have := l.isLt; omega
  have e1 : (iblk m c 0 ⟨t.val, ht⟩ : Vec Ideal S8192x128 .f32) (ix2 r l)
      = (V m c main_v0 : S262144x128.Idx → Ideal .f32) (ix2 ⟨t.val * 8192 + r.val, h1⟩ l) :=
    block_apply m c ⟨t.val, ht⟩ r l h1
  have e2 : (V m c main_v0 : S262144x128.Idx → Ideal .f32) (ix2 ⟨t.val * 8192 + r.val, h1⟩ l)
      = m ((c : Thread nD τ).loc main_arg0) (ix1 ⟨(t.val * 8192 + r.val) * 128 + l.val, h2⟩) :=
    (congrFun (entry_eq m c) _).trans (reshape_apply _ _ ⟨t.val * 8192 + r.val, h1⟩ l h2)
  have e3 : flat (m ((c : Thread nD τ).loc main_arg0)) ((t.val * 8192 + r.val) * 128 + l.val)
      = Huber.term (m ((c : Thread nD τ).loc main_arg0) (ix1 ⟨(t.val * 8192 + r.val) * 128 + l.val, h2⟩)) := by
    unfold flat
    rw [dif_pos h2]
  exact (congrArg Huber.term (e1.trans e2)).trans e3.symm

/-- THE BRIDGE.  The sum of the 32 block totals is the flat sum of the Huber terms of the argument. -/
theorem total_eq (c : Dev nD) :
    KernelValue.total m c = ∑ j : S33554432.Idx, Huber.term (m ((c : Thread nD τ).loc main_arg0) j) := by
  unfold KernelValue.total
  rw [LibSumBlocks.sum_range_eq_sum_fin 32 (Accum.addend m c) _ (addend_eq m c), flat_sum]
  exact (LibSumBlocks.sum_fin_nat_blocks3 32 8192 128 (by norm_num) _).symm

end Cert.KernelIdeal.Bridge

end
-- ==== Proof.lean ====
/-
  A Huber loss summed over 33,554,432 numbers: a kernel against its reference, on the extended reals.

  The reference forms the Huber term at every position of the flat argument `x` — `x² · ½` where
  `|x| ≤ τ`, `τ · (|x| − τ) + c` elsewhere, with the same three constants, word for word, as the
  kernel — and sums all of them from zero in one reduction.

  The kernel views `x` as 262144 rows of 128 lanes and walks 32 grid points, each reading 8192
  consecutive rows.  At a point it forms the same term at every entry of its block, sums every row
  over its lanes, sums the row sums, and adds the block's total to a running total it carries from
  point to point (reset to zero at the first point); after the last point it hands the running total
  out, and a final reshape makes the 1 × 1 array a scalar.

  Why the two results are equal.  On the extended reals every kernel reduction is a plain finite sum
  and each reshape moves no number, so the kernel's result is the sum over blocks, rows and lanes
  of the term at the flat position `(8192·t + r)·128 + l`; these positions run once through all the
  positions of `x`.  The two results are therefore one finite sum in two groupings, and addition of
  extended reals is commutative and associative (at the infinities too), so they agree for every
  input: the precondition that the input is finite is never opened.

  The modules: `Huber` (the term; a block's total), `RefValue` (the reference's result is the flat
  sum), `BlockValue` (one point's arithmetic), `Pieces` and `Carried` (what each case of the body
  leaves; the running total from point to point), `Accum` (the running total is a sum), `KernelValue`
  (the output array and the program's result), `Bridge` (the regrouping), `LibSumBlocks` (a finite sum
  regrouped by blocks, in any commutative monoid).
-/
import proofs.«161205_j20255065768293_2_alg».proof.Defs
import proofs.«161205_j20255065768293_2_alg».proof.Proof.Gen.Kernel
import proofs.«161205_j20255065768293_2_alg».proof.Proof.Gen.Kernel.Skeleton
import proofs.«161205_j20255065768293_2_alg».proof.Proof.Gen.Kernel.Launch
import proofs.«161205_j20255065768293_2_alg».proof.Proof.Gen.Kernel.Points
import proofs.«161205_j20255065768293_2_alg».proof.Proof.Gen.Kernel.Frame
import proofs.«161205_j20255065768293_2_alg».proof.Proof.Gen.KernelIdeal
import proofs.«161205_j20255065768293_2_alg».proof.Proof.Gen.KernelIdeal.Skeleton
import proofs.«161205_j20255065768293_2_alg».proof.Proof.Gen.KernelIdeal.Launch
import proofs.«161205_j20255065768293_2_alg».proof.Proof.Gen.KernelIdeal.Points
import proofs.«161205_j20255065768293_2_alg».proof.Proof.Gen.KernelIdeal.Frame
import proofs.«161205_j20255065768293_2_alg».proof.Proof.Gen.ReferenceIdeal
import proofs.«161205_j20255065768293_2_alg».proof.Proof.Gen.ReferenceIdeal.Run
import proofs.«161205_j20255065768293_2_alg».proof.Proof.Gen.ReferenceIdeal.Read
import proofs.«161205_j20255065768293_2_alg».proof.Proof.Gen.Pre_finite_inputs
import proofs.«161205_j20255065768293_2_alg».proof.Proof.RefValue
import proofs.«161205_j20255065768293_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed terminates without a fault and leaves its argument as it found it. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Reading the kernel on the extended reals rewrote none of its operations. -/
theorem preserves : Cert.preserves_Kernel_KernelIdeal := trivial

/-- From arguments that agree, the kernel ends at the sum of its 32 block totals and the reference at the flat sum of
    the Huber terms: one finite sum in two groupings. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.KernelValue.total m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ReferenceIdeal.RefValue.result_apply, hagree c]
  exact (Cert.KernelIdeal.Bridge.total_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
